-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : IVec S8192x1024 32) (main_arg1 : FVec F S8192x1024 .f32) (main_arg2 : FVec F S8192x1024 .f32) (main_arg3 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S_ : Shape := ⟨0, ![]⟩
abbrev S8192x1 : Shape := ⟨2, ![8192, 1]⟩
abbrev S8192x1023 : Shape := ⟨2, ![8192, 1023]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 31
  | .vmem => 10
  | .smem => 0
  | _ => 0

abbrev bufTy : (tb : Table) → Fin (tcTables nBuf tb) → BufTy
  | .hbm, ⟨0, _⟩ => ⟨S8192x1024, .i32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .i32⟩
  | .hbm, ⟨5, _⟩ => ⟨S8192x1024, .i32⟩
  | .hbm, ⟨6, _⟩ => ⟨S8192x1024, .i1⟩
  | .hbm, ⟨7, _⟩ => ⟨S8192x1024, .i32⟩
  | .hbm, ⟨8, _⟩ => ⟨S_, .i32⟩
  | .hbm, ⟨9, _⟩ => ⟨S_, .i32⟩
  | .hbm, ⟨10, _⟩ => ⟨S8192x1024, .i32⟩
  | .hbm, ⟨11, _⟩ => ⟨S_, .i32⟩
  | .hbm, ⟨12, _⟩ => ⟨S8192x1024, .i32⟩
  | .hbm, ⟨13, _⟩ => ⟨S8192x1024, .i1⟩
  | .hbm, ⟨14, _⟩ => ⟨S_, .i32⟩
  | .hbm, ⟨15, _⟩ => ⟨S_, .i32⟩
  | .hbm, ⟨16, _⟩ => ⟨S8192x1024, .i32⟩
  | .hbm, ⟨17, _⟩ => ⟨S8192x1024, .i32⟩
  | .hbm, ⟨18, _⟩ => ⟨S_, .i32⟩
  | .hbm, ⟨19, _⟩ => ⟨S8192x1024, .i32⟩
  | .hbm, ⟨20, _⟩ => ⟨S8192x1024, .i1⟩
  | .hbm, ⟨21, _⟩ => ⟨S8192x1024, .f32⟩
  | .hbm, ⟨22, _⟩ => ⟨S_, .f32⟩
  | .hbm, ⟨23, _⟩ => ⟨S8192x1, .f32⟩
  | .hbm, ⟨24, _⟩ => ⟨S8192x1023, .f32⟩
  | .hbm, ⟨25, _⟩ => ⟨S8192x1024, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S1x1, .f32⟩
  | _, _ => ⟨S8192x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_c : Ref sig .tc := ⟨.hbm, 8, rfl⟩
abbrev main_call0_call0_v0 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S8192x1024 : S_.BroadcastsInDim S8192x1024 (![] : Fin 0 → Fin S8192x1024.rank)
  natLt_1_32 : 1 < 32
  bcast_S_S_ : S_.BroadcastsInDim S_ (![] : Fin 0 → Fin S_.rank)
  reduceWindows_S8192x1024_S8192x1024_w1s1p0_0_w1024s1p1023_0 : S8192x1024.ReduceWindows (![1, 1024] : Fin 2 → Nat) ![1, 1] ![0, 1023] ![0, 0] S8192x1024
  h_S_ : 0 < S_.numel
  bcast_S_S8192x1 : S_.BroadcastsInDim S8192x1 (![] : Fin 0 → Fin S8192x1.rank)
  slices_S8192x1024_S8192x1023_0_0 : S8192x1024.Slices ![0, 0] S8192x1023
  concatenates_S8192x1_S8192x1023_S8192x1024_d1 : Shape.Concatenates [S8192x1, S8192x1023] S8192x1024 1
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192x1 : Shape := ⟨2, ![8192, 1]⟩
abbrev S8192x1023 : Shape := ⟨2, ![8192, 1023]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .i32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .i32⟩
  | .hbm, ⟨5, _⟩ => ⟨S8192x1024, .i32⟩
  | .hbm, ⟨6, _⟩ => ⟨S8192x1024, .i1⟩
  | .hbm, ⟨7, _⟩ => ⟨S8192x1024, .i32⟩
  | .hbm, ⟨8, _⟩ => ⟨S_, .i32⟩
  | .hbm, ⟨9, _⟩ => ⟨S_, .i32⟩
  | .hbm, ⟨10, _⟩ => ⟨S8192x1024, .i32⟩
  | .hbm, ⟨11, _⟩ => ⟨S_, .i32⟩
  | .hbm, ⟨12, _⟩ => ⟨S8192x1024, .i32⟩
  | .hbm, ⟨13, _⟩ => ⟨S8192x1024, .i1⟩
  | .hbm, ⟨14, _⟩ => ⟨S_, .i32⟩
  | .hbm, ⟨15, _⟩ => ⟨S_, .i32⟩
  | .hbm, ⟨16, _⟩ => ⟨S8192x1024, .i32⟩
  | .hbm, ⟨17, _⟩ => ⟨S8192x1024, .i32⟩
  | .hbm, ⟨18, _⟩ => ⟨S_, .i32⟩
  | .hbm, ⟨19, _⟩ => ⟨S8192x1024, .i32⟩
  | .hbm, ⟨20, _⟩ => ⟨S8192x1024, .i1⟩
  | .hbm, ⟨21, _⟩ => ⟨S8192x1024, .f32⟩
  | .hbm, ⟨22, _⟩ => ⟨S_, .f32⟩
  | .hbm, ⟨23, _⟩ => ⟨S8192x1, .f32⟩
  | .hbm, ⟨24, _⟩ => ⟨S8192x1023, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_c : Ref sig .tc := ⟨.hbm, 8, rfl⟩
abbrev main_call0_call0_v0 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  natLt_1_32 : 1 < 32
  bcast_S_S_ : S_.BroadcastsInDim S_ (![] : Fin 0 → Fin S_.rank)
  reduceWindows_S8192x1024_S8192x1024_w1s1p0_0_w1024s1p1023_0 : S8192x1024.ReduceWindows (![1, 1024] : Fin 2 → Nat) ![1, 1] ![0, 1023] ![0, 0] S8192x1024
  h_S_ : 0 < S_.numel
  bcast_S_S8192x1 : S_.BroadcastsInDim S8192x1 (![] : Fin 0 → Fin S8192x1.rank)
  slices_S8192x1024_S8192x1023_0_0 : S8192x1024.Slices ![0, 0] S8192x1023
  concatenates_S8192x1_S8192x1023_S8192x1024_d1 : Shape.Concatenates [S8192x1, S8192x1023] S8192x1024 1
  reducesTo_S8192x1024_S_d0_1 : S8192x1024.ReducesTo [0, 1] S_

variable [Facts₀]

class Facts : Prop extends Facts₀ where

variable [Facts]
-- ==== Proof.Spec.lean ====
/-
  The masked policy-gradient loss as ONE function of the four argument arrays, over the extended reals.

  From the token ids a 0/1 mask is built, row by row: a token is kept when it is nonzero and no zero token stands at or
  before it in its row (a running count of zeros, compared with 0), and the kept flags are shifted one place to the
  right with a leading 1. With `L` the log-probabilities, `V` the values and `R` the rewards, the loss is

      ( ∑ᵢ (-Lᵢ) · (Rᵢ - Vᵢ) · maskᵢ )  /  ( ∑ᵢ maskᵢ ),

  both sums over every (row, position) pair. The mask's construction is never opened: it is the same chain of
  operations wherever it is used, so it is carried as one function of the token ids.
-/
import Idealize.ShloMosaic.PureOps
import Idealize.ShloMosaic.PureOps.Ideal
import Idealize.ShloMosaic.Lib.ValueIdx

noncomputable section

namespace Cert.MaskedLoss

open Idealize.ShloMosaic

/-- tokens: 8192 rows of 1024 positions -/
abbrev SBT : Shape := ⟨2, ![8192, 1024]⟩
abbrev SB1 : Shape := ⟨2, ![8192, 1]⟩
abbrev SBT' : Shape := ⟨2, ![8192, 1023]⟩
abbrev S0 : Shape := ⟨0, ![]⟩

variable {F : FTy → Type} [FloatOps F]

/-- The all-zero integer array every comparison below is against. -/
abbrev zerosI : IVec SBT 32 := broadcastInDim SBT ![] (by decide) (constantI S0 32 0#32)

/-- The 0/1 mask of the kept tokens, shifted right by one place behind a leading column of ones. -/
def mask (seq : IVec SBT 32) : FVec F SBT .f32 :=
  concatenate SBT 1
    [⟨SB1, broadcastInDim SB1 ![] (by decide) (constant S0 .f32 0x3F800000#32)⟩,
     ⟨SBT', extractStridedSlice SBT' ![0, 0]
        (uitofp .f32
          (cmpi .sgt
            (select
              (cmpi .sgt
                (Host.reduceWindow IntOp.addi ![1, 1024] ![1, 1] ![0, 1023] ![0, 0]
                  (extui 32 (cmpi .eq seq zerosI) (by decide))
                  (broadcastInDim S0 ![] (by decide) (constantI S0 32 0#32)) (by decide) (by decide))
                zerosI)
              (broadcastInDim SBT ![] (by decide) (id (constantI S0 32 0#32)))
              seq)
            zerosI))
        (by decide)⟩]
    (show Shape.Concatenates [SB1, SBT'] SBT 1 by decide)

/-- One token's term of the numerator. -/
def term (M L V R : SBT.Idx → EReal) (i : SBT.Idx) : EReal := -(L i) * (R i - V i) * M i

/-- The loss: the sum of the terms divided by the sum of the mask. -/
def loss (seq : IVec SBT 32) (L V R : FVec Ideal SBT .f32) : FVec Ideal S0 .f32 :=
  Host.divf (F := Ideal) (fun _ => ∑ i, term (mask (F := Ideal) seq) L V R i) (fun _ => ∑ i, mask (F := Ideal) seq i)

end Cert.MaskedLoss

end
-- ==== Proof.RefRun.lean ====
/-
  The reference program's @main as one straight line of host operations, and its run read back at the result.

  @main calls two module-local functions; one of them (the running count along a row) itself calls a third. A call
  executes the callee's body on the operands, so the program is the list of its own operations with each callee's
  operations in the place of the call, over that call's buffers. Run from any memory, every result buffer ends at the
  composition of the operations' functions over the arguments' contents. At the result this composition is

      ( Σ (-L) · (R - V) · mask )  /  ( Σ mask )

  as host operations, where `mask` is the chain that builds the 0/1 token mask from the token ids — carried as one
  function, never opened. Over the extended reals the two host sums into the rank-0 shape are the initial value 0 plus
  the sum over every index, which is the specification's loss.
-/
import proofs.«148462_j57990648430743_1_alg».proof.ReferenceIdeal
import proofs.«148462_j57990648430743_1_alg».proof.Proof.Gen.ReferenceIdeal
import proofs.«148462_j57990648430743_1_alg».proof.Proof.Spec
import Idealize.ShloMosaic.Lib.StableHlo.Run
import Idealize.ShloMosaic.PureOps.Ideal.Laws
import Idealize.ShloMosaic.Lib.ValueIdx

noncomputable section

namespace Cert.ReferenceIdeal.RefRun

open Cert.ReferenceIdeal Cert.ReferenceIdeal.Gen Idealize.ShloMosaic Idealize.ShloMosaic.StableHlo Idealize.SL.Sem

variable {F : FTy → Type} [FloatOps F]

/-- @main's thirty-one operations in order. The running count's call is three operations over its inner call's
    buffers (the scalar zero, its rank-0 broadcast, the windowed sum along the row); the select's call is three over
    its own (the scalar converted to its own type, its broadcast, the select); around them @main's twenty-five. -/
abbrev ops : List (HloOp τ sig (Elt F)) :=
  [ nullary main_c (constantI S_ 32 0#32),
    unary main_c main_v0 (broadcastInDim S8192x1024 ![] bcast_S_S8192x1024 : (⟨S_, .i32⟩ : BufTy).Contents (Elt F) → (⟨S8192x1024, .i32⟩ : BufTy).Contents (Elt F)),
    binary main_arg0 main_v0 main_v1 (cmpi .eq : (⟨S8192x1024, .i32⟩ : BufTy).Contents (Elt F) → (⟨S8192x1024, .i32⟩ : BufTy).Contents (Elt F) → (⟨S8192x1024, .i1⟩ : BufTy).Contents (Elt F)),
    unary main_v1 main_v2 ((extui 32 · natLt_1_32) : (⟨S8192x1024, .i1⟩ : BufTy).Contents (Elt F) → (⟨S8192x1024, .i32⟩ : BufTy).Contents (Elt F)),
    TRef.nullary main_call0.call0.c (constantI S_ 32 0#32),
    TRef.unary main_call0.call0.c main_call0.call0.v0 (broadcastInDim S_ ![] bcast_S_S_),
    TRef.binary (.of main_v2) main_call0.call0.v0 main_call0.call0.v1 (fun x v => Host.reduceWindow IntOp.addi ![1, 1024] ![1, 1] ![0, 1023] ![0, 0] x v reduceWindows_S8192x1024_S8192x1024_w1s1p0_0_w1024s1p1023_0 h_S_),
    nullary main_c_0 (constantI S_ 32 0#32),
    unary main_c_0 main_v4 (broadcastInDim S8192x1024 ![] bcast_S_S8192x1024 : (⟨S_, .i32⟩ : BufTy).Contents (Elt F) → (⟨S8192x1024, .i32⟩ : BufTy).Contents (Elt F)),
    binary main_v3 main_v4 main_v5 (cmpi .sgt : (⟨S8192x1024, .i32⟩ : BufTy).Contents (Elt F) → (⟨S8192x1024, .i32⟩ : BufTy).Contents (Elt F) → (⟨S8192x1024, .i1⟩ : BufTy).Contents (Elt F)),
    nullary main_c_1 (constantI S_ 32 0#32),
    TRef.unary (.of main_c_1) main_call1.v0 id,
    TRef.unary main_call1.v0 main_call1.v1 (broadcastInDim S8192x1024 ![] bcast_S_S8192x1024),
    TRef.ternary (.of main_v5) main_call1.v1 (.of main_arg0) main_call1.v2 select,
    nullary main_c_2 (constantI S_ 32 0#32),
    unary main_c_2 main_v7 (broadcastInDim S8192x1024 ![] bcast_S_S8192x1024 : (⟨S_, .i32⟩ : BufTy).Contents (Elt F) → (⟨S8192x1024, .i32⟩ : BufTy).Contents (Elt F)),
    binary main_v6 main_v7 main_v8 (cmpi .sgt : (⟨S8192x1024, .i32⟩ : BufTy).Contents (Elt F) → (⟨S8192x1024, .i32⟩ : BufTy).Contents (Elt F) → (⟨S8192x1024, .i1⟩ : BufTy).Contents (Elt F)),
    unary main_v8 main_v9 (uitofp .f32 : (⟨S8192x1024, .i1⟩ : BufTy).Contents (Elt F) → (⟨S8192x1024, .f32⟩ : BufTy).Contents (Elt F)),
    nullary main_cst (constant S_ .f32 0x3F800000#32),
    unary main_cst main_v10 (broadcastInDim S8192x1 ![] bcast_S_S8192x1 : (⟨S_, .f32⟩ : BufTy).Contents (Elt F) → (⟨S8192x1, .f32⟩ : BufTy).Contents (Elt F)),
    unary main_v9 main_v11 ((extractStridedSlice S8192x1023 ![0, 0] · slices_S8192x1024_S8192x1023_0_0) : (⟨S8192x1024, .f32⟩ : BufTy).Contents (Elt F) → (⟨S8192x1023, .f32⟩ : BufTy).Contents (Elt F)),
    binary main_v10 main_v11 main_v12 ((fun a b => concatenate S8192x1024 1 [⟨S8192x1, a⟩, ⟨S8192x1023, b⟩] concatenates_S8192x1_S8192x1023_S8192x1024_d1) : (⟨S8192x1, .f32⟩ : BufTy).Contents (Elt F) → (⟨S8192x1023, .f32⟩ : BufTy).Contents (Elt F) → (⟨S8192x1024, .f32⟩ : BufTy).Contents (Elt F)),
    binary main_arg3 main_arg2 main_v13 (subf : (⟨S8192x1024, .f32⟩ : BufTy).Contents (Elt F) → (⟨S8192x1024, .f32⟩ : BufTy).Contents (Elt F) → (⟨S8192x1024, .f32⟩ : BufTy).Contents (Elt F)),
    unary main_arg1 main_v14 (Host.negf : (⟨S8192x1024, .f32⟩ : BufTy).Contents (Elt F) → (⟨S8192x1024, .f32⟩ : BufTy).Contents (Elt F)),
    binary main_v14 main_v13 main_v15 (mulf : (⟨S8192x1024, .f32⟩ : BufTy).Contents (Elt F) → (⟨S8192x1024, .f32⟩ : BufTy).Contents (Elt F) → (⟨S8192x1024, .f32⟩ : BufTy).Contents (Elt F)),
    binary main_v15 main_v12 main_v16 (mulf : (⟨S8192x1024, .f32⟩ : BufTy).Contents (Elt F) → (⟨S8192x1024, .f32⟩ : BufTy).Contents (Elt F) → (⟨S8192x1024, .f32⟩ : BufTy).Contents (Elt F)),
    nullary main_cst_3 (constant S_ .f32 0x00000000#32),
    binary main_v16 main_cst_3 main_v17 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    nullary main_cst_4 (constant S_ .f32 0x00000000#32),
    binary main_v12 main_cst_4 main_v18 ((fun x v => Host.reduceAdd x v reducesTo_S8192x1024_S_d0_1 h_S_) : (⟨S8192x1024, .f32⟩ : BufTy).Contents (Elt F) → (⟨S_, .f32⟩ : BufTy).Contents (Elt F) → (⟨S_, .f32⟩ : BufTy).Contents (Elt F)),
    binary main_v17 main_v18 main_v19 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the three functions' definitions unfolded at their calls, both sides are one chain
    of steps once sequencing is reassociated. -/
theorem main_eq (c : Dev nD) : main (F := F) c = seq ops := by
  simp only [main, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub ..,
    nullary_bufs_sub .., unary_bufs_sub .., binary_bufs_sub ..,
    nullary_bufs_sub .., unary_bufs_sub .., binary_bufs_sub .., nullary_bufs_sub ..,
    unary_bufs_sub .., unary_bufs_sub .., ternary_bufs_sub ..,
    nullary_bufs_sub .., unary_bufs_sub .., binary_bufs_sub .., unary_bufs_sub ..,
    nullary_bufs_sub .., unary_bufs_sub .., unary_bufs_sub .., binary_bufs_sub ..,
    binary_bufs_sub .., unary_bufs_sub .., binary_bufs_sub .., binary_bufs_sub ..,
    nullary_bufs_sub .., binary_bufs_sub .., nullary_bufs_sub .., binary_bufs_sub .., binary_bufs_sub ..⟩

/-- What @main computes from the four arguments' contents: the masked numerator's sum over the mask's sum, both host
    sums from the initial value 0.0 into the rank-0 shape. -/
def out (a0 : IVec S8192x1024 32) (a1 a2 a3 : FVec F S8192x1024 .f32) : FVec F S_ .f32 :=
  Host.divf
    (Host.reduceAdd (mulf (mulf (Host.negf a1) (subf a3 a2)) (Cert.MaskedLoss.mask a0)) (constant S_ .f32 0x00000000#32)
      reducesTo_S8192x1024_S_d0_1 h_S_)
    (Host.reduceAdd (Cert.MaskedLoss.mask a0) (constant S_ .f32 0x00000000#32) reducesTo_S8192x1024_S_d0_1 h_S_)

attribute [local irreducible] Host.reduceWindow Host.reduceAdd concatenate in
set_option maxRecDepth 8192 in
/-- On every device, for any float values, from any memory with zero counters: every weakly fair execution of @main
    terminates with the result buffer at `out` of the arguments' launch contents and the arguments unchanged. The fold
    of the operations at the result buffer, each operation's result rewritten at its own buffer, is `out`'s body with
    the mask's chain spelled out: the same term. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

/-- Over the extended reals `out` is the specification's loss. Each of the two host sums into the rank-0 shape is its
    initial value plus the sum over every index; the initial value 0.0 is the extended real 0; and the numerator's
    summand at an index is the term `-(L i) * (R i - V i) * M i` (a host negation is the negation, products and
    differences are elementwise). -/
theorem out_eq_loss (a0 : IVec S8192x1024 32) (a1 a2 a3 : FVec Ideal S8192x1024 .f32) :
    out (F := Ideal) a0 a1 a2 a3 = Cert.MaskedLoss.loss a0 a1 a2 a3 := by
  unfold out Cert.MaskedLoss.loss
  refine congrArg₂ (Host.divf (F := Ideal)) (funext fun j => ?_) (funext fun j => ?_)
  · show Ideal.hostReduceAdd reducesTo_S8192x1024_S_d0_1
        (mulf (mulf (Host.negf a1) (subf a3 a2)) (Cert.MaskedLoss.mask (F := Ideal) a0)) (Ideal.ofBits .f32 0x00000000#32) j = _
    rw [Ideal.hostReduceAdd_total _ (fun b => b.elim0), Ideal.ofBits_zero_f32, zero_add]
    exact Finset.sum_congr rfl fun i _ => rfl
  · show Ideal.hostReduceAdd reducesTo_S8192x1024_S_d0_1 (Cert.MaskedLoss.mask (F := Ideal) a0) (Ideal.ofBits .f32 0x00000000#32) j = _
    rw [Ideal.hostReduceAdd_total _ (fun b => b.elim0), Ideal.ofBits_zero_f32, zero_add]

end Cert.ReferenceIdeal.RefRun

end
-- ==== Proof.Pieces.lean ====
/-
  What one grid step leaves in the two running totals, as values.

  Each step of the kernel reads a block of 512 rows of the mask, the log-probabilities, the values and the rewards, and
  adds the block's contribution to two one-entry accumulators. At the first step the accumulators are first set to
  zero, so the step leaves "zero plus the block's contribution"; at every later step it leaves "what the step before
  left plus the block's contribution". Here the stores the body makes are read back as those values: the payload
  of the last store into each accumulator, applied to the four blocks and to the accumulator's previous contents.
-/
import proofs.«148462_j57990648430743_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later step, numerator: the previous total `xo4` plus this block's sum of terms. -/
theorem out_B_4 (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc : ¬cond0_0 i)
    (x0 x1 x2 x3 : Vec F S512x1024 .f32) (xo4 xo5 : Vec F S1x1 .f32) :
    out0_B_4 c i a1 h1 a2 h2 a3 h3 a4 h4 a5 h5 a6 h6 hc x0 x1 x2 x3 xo4 xo5 = k0_pay4 x0 x1 x2 x3 xo4 := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  rw [View.canon_unit_zero hz]
  simp only [View.readAt_eq_ld, h1.read_unread, h2.read_unread, h3.read_unread, h4.read_unread, h5.read_unread, h6.read_unread,
    View.ld_unit_zero (S := S512x1024) hz, View.ld_unit_zero (S := S1x1) hz]

/-- A later step, denominator: the previous count `xo5` plus this block's sum of the mask. -/
theorem out_B_5 (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc : ¬cond0_0 i)
    (x0 x1 x2 x3 : Vec F S512x1024 .f32) (xo4 xo5 : Vec F S1x1 .f32) :
    out0_B_5 c i a1 h1 a2 h2 a3 h3 a4 h4 a5 h5 a6 h6 hc x0 x1 x2 x3 xo4 xo5 = k0_pay5 x0 xo5 := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  rw [View.canon_unit_zero hz]
  simp only [View.readAt_eq_ld, h1.read_unread, h2.read_unread, h3.read_unread, h4.read_unread, h5.read_unread, h6.read_unread,
    View.ld_unit_zero (S := S512x1024) hz, View.ld_unit_zero (S := S1x1) hz]

/-- The first step, numerator: the stored zero plus the first block's sum of terms. -/
theorem out_A_4 (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc : cond0_0 i)
    (x0 x1 x2 x3 : Vec F S512x1024 .f32) :
    out0_A_4 c i a1 h1 a2 h2 a3 h3 a4 h4 a5 h5 a6 h6 hc x0 x1 x2 x3 = k0_pay4 x0 x1 x2 x3 (k0_pay1 (F := F)) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S512x1024) hz, View.ld_unit_zero (S := S1x1) hz]

/-- The first step, denominator: the stored zero plus the first block's sum of the mask. -/
theorem out_A_5 (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc : cond0_0 i)
    (x0 x1 x2 x3 : Vec F S512x1024 .f32) :
    out0_A_5 c i a1 h1 a2 h2 a3 h3 a4 h4 a5 h5 a6 h6 hc x0 x1 x2 x3 = k0_pay5 x0 (k0_pay2 (F := F)) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S512x1024) hz, View.ld_unit_zero (S := S1x1) hz]

end Cert.KernelIdeal.Pieces

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibColOps.lean ====
/-
  Sums over the FIRST axis of an `[a, b]` array, and the two-step total a kernel writes as "sum each row keeping the
  axis, then sum the column of row sums keeping the axis": a reduction over the first axis read at column `u` is the
  sum over the rows of the entries of that column (the index the reduction puts the dropped coordinate back into is
  (k, u)); and the `[1, 1]` array obtained from an `[a, b]` array by summing over the second axis, viewing the
  `[a]` result as an `[a, 1]` column, summing that over the first axis and viewing the `[1]` result as `[1, 1]`,
  holds at its one index the double sum `∑ r, ∑ l` of the array's entries.
-/
import proofs.«148462_j57990648430743_1_alg».proof.Proof.LibRowOps

noncomputable section

namespace ColOps

open Idealize.ShloMosaic Idealize.ShloMosaic.ValueIdx

/-- The reduced index `u` with the first-axis coordinate `k` put back is (k, u). -/
theorem lift_col {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext c; apply Fin.ext
  fin_cases c <;> rfl

/-- A sum over the first axis, at column `u`: the sum over the rows of that column's entries. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (u : Fin b) :
    multiReduction .add [0] ⟨1, ![b]⟩ src acc h hφ hacc (ix1 u) = ∑ k : Fin a, src (ix2 k u) := by
  refine (Ideal.multiReduction_add_single src acc h hφ hacc (ix1 u)).trans ?_
  exact Finset.sum_congr rfl fun k _ => congrArg src (lift_col h u k)

/-- Row sums kept as a column, then the column's sum kept as a `[1, 1]` array: at its one index, the double sum. -/
theorem total_keepdims {a b : ℕ} (src : FVec Ideal ⟨2, ![a, b]⟩ .f32) (acc₁ acc₂ : BitVec 32)
    (h₁ : (⟨2, ![a, b]⟩ : Shape).Reduces [1] (⟨1, ![a]⟩ : Shape)) (hφ₁ : FKind.Formats .f32)
    (hacc₁ : acc₁ = FKind.add.neutral .f32 hφ₁)
    (c₁ : (⟨1, ![a]⟩ : Shape).ShapeCasts ⟨2, ![a, 1]⟩)
    (h₂ : (⟨2, ![a, 1]⟩ : Shape).Reduces [0] (⟨1, ![1]⟩ : Shape)) (hφ₂ : FKind.Formats .f32)
    (hacc₂ : acc₂ = FKind.add.neutral .f32 hφ₂)
    (c₂ : (⟨1, ![1]⟩ : Shape).ShapeCasts ⟨2, ![1, 1]⟩) (i u : Fin 1) :
    shapeCast ⟨2, ![1, 1]⟩
        (multiReduction .add [0] ⟨1, ![1]⟩
          (shapeCast ⟨2, ![a, 1]⟩ (multiReduction .add [1] ⟨1, ![a]⟩ src acc₁ h₁ hφ₁ hacc₁) c₁) acc₂ h₂ hφ₂ hacc₂) c₂ (ix2 i u)
      = ∑ r : Fin a, ∑ l : Fin b, src (ix2 r l) := by
  refine (RowOps.shapeCast_a_a1_apply _ c₂ i u).trans ?_
  refine (colSum_apply _ acc₂ h₂ hφ₂ hacc₂ i).trans ?_
  refine Finset.sum_congr rfl fun r _ => ?_
  refine (RowOps.shapeCast_a_a1_apply _ c₁ r i).trans ?_
  exact RowOps.rowSum_apply src acc₁ h₁ hφ₁ hacc₁ r

end ColOps

end
-- ==== Proof.Payload.lean ====
/-
  The two accumulating payloads of the kernel body, read over the extended reals.

  For a block of 512 rows by 1024 positions — `M` of the mask, `L` of the log-probabilities, `V` of the values,
  `R` of the rewards — and a one-entry accumulator `acc`, the numerator's payload is

      acc + ∑ r, ∑ l, -(L r l) · (R r l - V r l) · M r l

  (the body computes `0 - L`, which is `-L` on every extended real, multiplies, sums each row, then sums the
  column of row sums), and the denominator's payload is `acc + ∑ r, ∑ l, M r l`.
-/
import proofs.«148462_j57990648430743_1_alg».proof.Proof.Gen.KernelIdeal.Skeleton
import proofs.«148462_j57990648430743_1_alg».proof.Proof.LibColOps
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- One entry's term of a block's numerator sum. -/
def blockTerm (M L V R : FVec Ideal S512x1024 .f32) (r : Fin 512) (l : Fin 1024) : EReal :=
  -(L (ix2 r l)) * (R (ix2 r l) - V (ix2 r l)) * M (ix2 r l)

/-- The numerator's payload: the accumulator's entry plus the block's sum of terms. -/
theorem pay4_apply (M L V R : FVec Ideal S512x1024 .f32) (acc : FVec Ideal S1x1 .f32) (i u : Fin 1) :
    k0_pay4 (F := Ideal) M L V R acc (ix2 i u)
      = acc (ix2 i u) + ∑ r : Fin 512, ∑ l : Fin 1024, blockTerm M L V R r l := by
  unfold k0_pay4 k0_pay3
  dsimp only
  refine (addf_apply _ _ _).trans ?_
  refine congrArg₂ (· + ·) (congrFun (shapeCast_self _ _) _) ?_
  refine (ColOps.total_keepdims _ 0x00000000#32 0x00000000#32 reduces_S512x1024_S512 (.inl rfl) rfl shapeCasts_S512_S512x1
    reduces_S512x1_S1 (.inl rfl) rfl shapeCasts_S1_S1x1 i u).trans ?_
  refine Finset.sum_congr rfl fun r _ => Finset.sum_congr rfl fun l _ => ?_
  unfold blockTerm
  rw [mulf_apply, mulf_apply, subf_apply, subf_apply, broadcast_apply, shapeCast_self]
  show (Ideal.ofBits .f32 0x00000000#32 - L (ix2 r l)) * _ * _ = _
  rw [Ideal.ofBits_zero_f32, zero_sub]

/-- The denominator's payload: the accumulator's entry plus the block's sum of the mask. -/
theorem pay5_apply (M : FVec Ideal S512x1024 .f32) (acc : FVec Ideal S1x1 .f32) (i u : Fin 1) :
    k0_pay5 (F := Ideal) M acc (ix2 i u) = acc (ix2 i u) + ∑ r : Fin 512, ∑ l : Fin 1024, M (ix2 r l) := by
  unfold k0_pay5 k0_pay3
  dsimp only
  refine (addf_apply _ _ _).trans ?_
  refine congrArg₂ (· + ·) (congrFun (shapeCast_self _ _) _) ?_
  refine (ColOps.total_keepdims _ 0x00000000#32 0x00000000#32 reduces_S512x1024_S512 (.inl rfl) rfl shapeCasts_S512_S512x1
    reduces_S512x1_S1 (.inl rfl) rfl shapeCasts_S1_S1x1 i u).trans ?_
  refine Finset.sum_congr rfl fun r _ => Finset.sum_congr rfl fun l _ => ?_
  rw [shapeCast_self]

/-- The zero the first step stores: its one entry is the extended real 0. -/
theorem pay1_apply (j : S1x1.Idx) : k0_pay1 (F := Ideal) j = 0 := by
  unfold k0_pay1
  show Ideal.ofBits .f32 0x00000000#32 = 0
  exact Ideal.ofBits_zero_f32

theorem pay2_apply (j : S1x1.Idx) : k0_pay2 (F := Ideal) j = 0 := by
  unfold k0_pay2
  show Ideal.ofBits .f32 0x00000000#32 = 0
  exact Ideal.ofBits_zero_f32

end Cert.KernelIdeal.Payload

end
-- ==== Proof.Blocks.lean ====
/-
  The four input blocks of a grid step, read off the arrays the kernel region finds.

  The grid has 16 steps; at step `t` each input window holds rows 512·t … 512·t + 511 (all 1024 positions) of its
  array, so entry (r, l) of a block is entry (512·t + r, l) of the array. The first window's array is the token mask,
  which the host operations before the region build from the token ids: as a value it is the specification's `mask` of
  the token ids (the chain of operations is the same, so this is a matter of reading the operations off in order; the
  mask's construction is not opened).
-/
import proofs.«148462_j57990648430743_1_alg».proof.Proof.Gen.KernelIdeal.Frame
import proofs.«148462_j57990648430743_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

theorem idx0 : ∀ t : Fin cfg0.N, win0_0.index t 0 = t.val ∧ win0_0.index t 1 = 0 :=
  (by decide +kernel : ∀ t : Fin grid0.N, win0_0.index t 0 = t.val ∧ win0_0.index t 1 = 0)

/-- Entry (r, l) of window 0's block at step `t` is entry (512·t + r, l) of its array. -/
theorem iblk0_apply (c : Dev nD) (t : Fin cfg0.N) (r : Fin 512) (l : Fin 1024) (q : Fin 8192) (hq : q.val = 512 * t.val + r.val) :
    (iblk m c 0 t : Vec F S512x1024 .f32) (ix2 r l) = V m c main_v12 (ix2 q l) := by
  unfold iblk
  rw [View.read_apply]
  show V m c main_v12 _ = V m c main_v12 _
  refine congrArg (V m c main_v12) ?_
  funext a
  apply Fin.ext
  match a with
  | ⟨0, _⟩ => show win0_0.index t 0 * 512 + 1 * r.val = q.val; rw [(idx0 t).1, hq]; omega
  | ⟨1, _⟩ => show win0_0.index t 1 * 1024 + 1 * l.val = l.val; rw [(idx0 t).2]; omega

theorem idx1 : ∀ t : Fin cfg0.N, win0_1.index t 0 = t.val ∧ win0_1.index t 1 = 0 :=
  (by decide +kernel : ∀ t : Fin grid0.N, win0_1.index t 0 = t.val ∧ win0_1.index t 1 = 0)

/-- Entry (r, l) of window 1's block at step `t` is entry (512·t + r, l) of its array. -/
theorem iblk1_apply (c : Dev nD) (t : Fin cfg0.N) (r : Fin 512) (l : Fin 1024) (q : Fin 8192) (hq : q.val = 512 * t.val + r.val) :
    (iblk m c 1 t : Vec F S512x1024 .f32) (ix2 r l) = V m c main_arg1 (ix2 q l) := by
  unfold iblk
  rw [View.read_apply]
  show V m c main_arg1 _ = V m c main_arg1 _
  refine congrArg (V m c main_arg1) ?_
  funext a
  apply Fin.ext
  match a with
  | ⟨0, _⟩ => show win0_1.index t 0 * 512 + 1 * r.val = q.val; rw [(idx1 t).1, hq]; omega
  | ⟨1, _⟩ => show win0_1.index t 1 * 1024 + 1 * l.val = l.val; rw [(idx1 t).2]; omega

theorem idx2 : ∀ t : Fin cfg0.N, win0_2.index t 0 = t.val ∧ win0_2.index t 1 = 0 :=
  (by decide +kernel : ∀ t : Fin grid0.N, win0_2.index t 0 = t.val ∧ win0_2.index t 1 = 0)

/-- Entry (r, l) of window 2's block at step `t` is entry (512·t + r, l) of its array. -/
theorem iblk2_apply (c : Dev nD) (t : Fin cfg0.N) (r : Fin 512) (l : Fin 1024) (q : Fin 8192) (hq : q.val = 512 * t.val + r.val) :
    (iblk m c 2 t : Vec F S512x1024 .f32) (ix2 r l) = V m c main_arg2 (ix2 q l) := by
  unfold iblk
  rw [View.read_apply]
  show V m c main_arg2 _ = V m c main_arg2 _
  refine congrArg (V m c main_arg2) ?_
  funext a
  apply Fin.ext
  match a with
  | ⟨0, _⟩ => show win0_2.index t 0 * 512 + 1 * r.val = q.val; rw [(idx2 t).1, hq]; omega
  | ⟨1, _⟩ => show win0_2.index t 1 * 1024 + 1 * l.val = l.val; rw [(idx2 t).2]; omega

theorem idx3 : ∀ t : Fin cfg0.N, win0_3.index t 0 = t.val ∧ win0_3.index t 1 = 0 :=
  (by decide +kernel : ∀ t : Fin grid0.N, win0_3.index t 0 = t.val ∧ win0_3.index t 1 = 0)

/-- Entry (r, l) of window 3's block at step `t` is entry (512·t + r, l) of its array. -/
theorem iblk3_apply (c : Dev nD) (t : Fin cfg0.N) (r : Fin 512) (l : Fin 1024) (q : Fin 8192) (hq : q.val = 512 * t.val + r.val) :
    (iblk m c 3 t : Vec F S512x1024 .f32) (ix2 r l) = V m c main_arg3 (ix2 q l) := by
  unfold iblk
  rw [View.read_apply]
  show V m c main_arg3 _ = V m c main_arg3 _
  refine congrArg (V m c main_arg3) ?_
  funext a
  apply Fin.ext
  match a with
  | ⟨0, _⟩ => show win0_3.index t 0 * 512 + 1 * r.val = q.val; rw [(idx3 t).1, hq]; omega
  | ⟨1, _⟩ => show win0_3.index t 1 * 1024 + 1 * l.val = l.val; rw [(idx3 t).2]; omega

attribute [local irreducible] Host.reduceWindow concatenate extractStridedSlice in
/-- The array the first window reads is the token mask of the launch's token ids. -/
theorem V_mask (c : Dev nD) :
    (V m c main_v12 : S8192x1024.Idx → F .f32) = Cert.MaskedLoss.mask (F := F) (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Blocks

end
-- ==== Proof.Sums.lean ====
/-
  Summing an 8192 × 1024 array block by block.

  The rows are cut into 16 consecutive blocks of 512 rows; block `s` holds rows 512·s … 512·s + 511. The sum of a
  function over one block is a double sum over the row inside the block and the position, and the sum of the 16 block
  sums is the sum over the whole array: every row is row `r` of exactly one block `s` (the pair (s, r) ↔ 512·s + r is a
  bijection of 16 × 512 with the 8192 rows). Only commutativity and associativity of addition are used, so this holds
  in any commutative monoid — in particular on the extended reals, with no finiteness assumption.
-/
import proofs.«148462_j57990648430743_1_alg».proof.Proof.Spec
import Idealize.ShloMosaic.Lib.ValueIdx

noncomputable section

namespace Cert.MaskedLoss

open Idealize.ShloMosaic Idealize.ShloMosaic.ValueIdx

/-- Row `r` of block `s`. -/
def rowOf (s : ℕ) (hs : s < 16) (r : Fin 512) : Fin 8192 := ⟨512 * s + r.val, by have := r.isLt; omega⟩

theorem rowOf_val (s : ℕ) (hs : s < 16) (r : Fin 512) : (rowOf s hs r).val = 512 * s + r.val := rfl

/-- The sum of `f` over block `s`. -/
def blockSum {M : Type*} [AddCommMonoid M] (f : SBT.Idx → M) (s : ℕ) (hs : s < 16) : M :=
  ∑ r : Fin 512, ∑ l : Fin 1024, f (ix2 (rowOf s hs r) l)

/-- The 16 block sums add up to the sum over the whole array. -/
theorem sum_blocks {M : Type*} [AddCommMonoid M] (f : SBT.Idx → M) :
    ∑ s : Fin 16, blockSum f s.val s.isLt = ∑ i, f i := by
  rw [sum_idx2 f]
  unfold blockSum
  rw [← Fintype.sum_prod_type' (f := fun (s : Fin 16) (r : Fin 512) => ∑ l : Fin 1024, f (ix2 (rowOf s.val s.isLt r) l))]
  refine Fintype.sum_equiv (finProdFinEquiv : Fin 16 × Fin 512 ≃ Fin 8192) _ _ fun x => ?_
  refine Finset.sum_congr rfl fun l _ => congrArg f ?_
  refine congrArg (fun a => ix2 a l) (Fin.ext ?_)
  show 512 * x.1.val + x.2.val = x.2.val + 512 * x.1.val
  omega

/-- The running total after blocks `0 … n`, as a sum over the naturals below `n + 1` (a block number past 15 is
    read modulo 16; it is never used). -/
def blockAt {M : Type*} [AddCommMonoid M] (f : SBT.Idx → M) (s : ℕ) : M := blockSum f (s % 16) (Nat.mod_lt _ (by decide))

theorem blockAt_of_lt {M : Type*} [AddCommMonoid M] (f : SBT.Idx → M) (s : ℕ) (hs : s < 16) : blockAt f s = blockSum f s hs := by
  unfold blockAt
  congr 1
  exact Nat.mod_eq_of_lt hs

/-- All 16 blocks: the whole sum. -/
theorem sum_range_blockAt {M : Type*} [AddCommMonoid M] (f : SBT.Idx → M) :
    ∑ s ∈ Finset.range 16, blockAt f s = ∑ i, f i := by
  rw [Finset.sum_range, ← sum_blocks f]
  exact Finset.sum_congr rfl fun s _ => blockAt_of_lt f s.val s.isLt

end Cert.MaskedLoss

end
-- ==== Proof.Accum.lean ====
/-
  The two running totals after each grid step, over the extended reals.

  After step `n` the numerator's accumulator holds the sum, over blocks `0 … n`, of the block sums of the terms
  `-(L i) · (R i - V i) · M i` (`M` the token mask, `L`, `V`, `R` the three float arguments), and the denominator's
  accumulator the sum over the same blocks of the block sums of `M`: step 0 stores zero and adds block 0, every later
  step adds its own block to what the step before left. By induction on the step — the grid is never enumerated.
-/
import proofs.«148462_j57990648430743_1_alg».proof.Proof.Pieces
import proofs.«148462_j57990648430743_1_alg».proof.Proof.Payload
import proofs.«148462_j57990648430743_1_alg».proof.Proof.Blocks
import proofs.«148462_j57990648430743_1_alg».proof.Proof.Sums

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen
open Cert.MaskedLoss (term blockSum blockAt rowOf blockAt_of_lt)

/-- A block's sum of terms, when each of the four blocks is the matching block of rows of an array. -/
theorem blockTerm_sum (X0 X1 X2 X3 : FVec Ideal S512x1024 .f32) (A0 A1 A2 A3 : Cert.MaskedLoss.SBT.Idx → EReal)
    (s : ℕ) (hs : s < 16)
    (h0 : ∀ r l, X0 (ix2 r l) = A0 (ix2 (rowOf s hs r) l)) (h1 : ∀ r l, X1 (ix2 r l) = A1 (ix2 (rowOf s hs r) l))
    (h2 : ∀ r l, X2 (ix2 r l) = A2 (ix2 (rowOf s hs r) l)) (h3 : ∀ r l, X3 (ix2 r l) = A3 (ix2 (rowOf s hs r) l)) :
    ∑ r : Fin 512, ∑ l : Fin 1024, Payload.blockTerm X0 X1 X2 X3 r l = blockSum (term A0 A1 A2 A3) s hs := by
  unfold blockSum Payload.blockTerm term
  refine Finset.sum_congr rfl fun r _ => Finset.sum_congr rfl fun l _ => ?_
  rw [h0 r l, h1 r l, h2 r l, h3 r l]

/-- A block's sum of the mask likewise. -/
theorem blockMask_sum (X0 : FVec Ideal S512x1024 .f32) (A0 : Cert.MaskedLoss.SBT.Idx → EReal) (s : ℕ) (hs : s < 16)
    (h0 : ∀ r l, X0 (ix2 r l) = A0 (ix2 (rowOf s hs r) l)) :
    ∑ r : Fin 512, ∑ l : Fin 1024, X0 (ix2 r l) = blockSum A0 s hs := by
  unfold blockSum
  exact Finset.sum_congr rfl fun r _ => Finset.sum_congr rfl fun l _ => h0 r l

variable (m : (ℓ : Loc nD τ sig) → Buf (Elt Ideal) ℓ)

/-- The terms of the numerator over the arrays the region finds. -/
abbrev T (c : Dev nD) : Cert.MaskedLoss.SBT.Idx → EReal :=
  term (V m c main_v12) (V m c main_arg1) (V m c main_arg2) (V m c main_arg3)

/-- The mask the region finds. -/
abbrev Mk (c : Dev nD) : Cert.MaskedLoss.SBT.Idx → EReal := V m c main_v12

theorem stepNum (c : Dev nD) (t : Fin cfg0.N) (ht : t.val < 16) :
    ∑ r : Fin 512, ∑ l : Fin 1024, Payload.blockTerm (iblk m c 0 t) (iblk m c 1 t) (iblk m c 2 t) (iblk m c 3 t) r l
      = blockAt (T m c) t.val :=
  (blockTerm_sum (iblk m c 0 t) (iblk m c 1 t) (iblk m c 2 t) (iblk m c 3 t) (V m c main_v12) (V m c main_arg1) (V m c main_arg2)
    (V m c main_arg3) t.val ht (fun r l => Blocks.iblk0_apply m c t r l _ rfl) (fun r l => Blocks.iblk1_apply m c t r l _ rfl)
    (fun r l => Blocks.iblk2_apply m c t r l _ rfl) (fun r l => Blocks.iblk3_apply m c t r l _ rfl)).trans
    (blockAt_of_lt _ _ ht).symm

/-- The mask's block at step `t`. -/
abbrev X0 (c : Dev nD) (t : Fin cfg0.N) : FVec Ideal S512x1024 .f32 := iblk m c 0 t

theorem stepDen (c : Dev nD) (t : Fin cfg0.N) (ht : t.val < 16) :
    ∑ r : Fin 512, ∑ l : Fin 1024, X0 m c t (ix2 r l) = blockAt (Mk m c) t.val :=
  (blockMask_sum (iblk m c 0 t) (V m c main_v12) t.val ht (fun r l => Blocks.iblk0_apply m c t r l _ rfl)).trans
    (blockAt_of_lt _ _ ht).symm

/-- After step `n`: the sums over blocks `0 … n`. -/
theorem outsAt_eq (c : Dev nD) : ∀ (n : ℕ) (h : n < cfg0.N) (i u : Fin 1),
    (outsAt0 m c n h).1 (ix2 i u) = ∑ s ∈ Finset.range (n + 1), blockAt (T m c) s
      ∧ (outsAt0 m c n h).2 (ix2 i u) = ∑ s ∈ Finset.range (n + 1), blockAt (Mk m c) s
  | 0, h, i, u => by
    rw [outsAt0_A m c ⟨0, h⟩ rfl]
    dsimp only
    rw [Pieces.out_A_4, Pieces.out_A_5, Payload.pay4_apply, Payload.pay5_apply, Payload.pay1_apply, Payload.pay2_apply, zero_add,
      zero_add, zero_add, Finset.sum_range_one, Finset.sum_range_one]
    exact ⟨stepNum m c ⟨0, h⟩ (by decide : (0 : ℕ) < 16), stepDen m c ⟨0, h⟩ (by decide : (0 : ℕ) < 16)⟩
  | n + 1, h, i, u => by
    have hN : cfg0.N = 16 := N_0
    have hn : n + 1 < 16 := by omega
    have hB : ¬(⟨n + 1, h⟩ : Fin cfg0.N).val % 16 = 0 := by dsimp only; omega
    rw [outsAt0_B m c ⟨n + 1, h⟩ hB]
    dsimp only
    rw [Pieces.out_B_4, Pieces.out_B_5, Payload.pay4_apply, Payload.pay5_apply, Finset.sum_range_succ _ (n + 1),
      Finset.sum_range_succ _ (n + 1)]
    exact ⟨congrArg₂ (· + ·) (outsAt_eq c n (Nat.lt_of_succ_lt h) i u).1 (stepNum m c ⟨n + 1, h⟩ hn),
      congrArg₂ (· + ·) (outsAt_eq c n (Nat.lt_of_succ_lt h) i u).2 (stepDen m c ⟨n + 1, h⟩ hn)⟩

end Cert.KernelIdeal.Accum

end
-- ==== Proof.Tail.lean ====
/-
  The kernel program from its accumulators to @main's result.

  The grid has 16 points. Output windows 4 and 5 are [1,1] accumulators whose block index never moves: each is written
  back to its result array once, after the last point, and that one block is the whole array. So each result array ends
  holding what the body left in the window's buffer after point 15. After the region @main reshapes each [1,1] result
  to a scalar and divides the first by the second; the arguments are never written.
-/
import proofs.«148462_j57990648430743_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Point 15 is a point of the grid. -/
theorem h15 : 15 < cfg0.N := by rw [show cfg0.N = 16 from N_0]; decide

/-- Output 4's one write-back, at the last point, writes what the body left there: block (0, 0) of the [1,1] array read
    through zero offsets is the array. -/
theorem flushed4_eq (c : Dev nD) (G : Vec F S1x1 .f32) (h : (outsAt0 m c 15 h15).1 = G) (t : Fin cfg0.N)
    (hf : (cfg0.win 4).flush t = true) :
    (dats m 0 c).flushed 4 t = ((cfg0.win 4).blk t).view.read (Elt F) G := by
  have hN : cfg0.N = 16 := N_0
  have ht : t.val = 15 := by have := (flush0_4 t).mp hf; have := t.isLt; omega
  obtain rfl : t = t0_15 := Fin.ext ht
  show (cfg0.win 4).cut (grid0.coords t0_15) ((dats m 0 c).after 4 t0_15) = _
  rw [after0_4, show (outsAt0 m c t0_15.val t0_15.isLt).1 = G from h]
  have hz' : (fun a => win0_4.index t0_15 a * main_v13_0.ty.shape.size a) = fun _ => 0 := funext fun a => by fin_cases a <;> decide
  exact (Memref.read_access_unit_zero (Elt F) main_v13_0 hz' (fun a => by rw [congrFun hz' a]; simp) G).symm

/-- So the result array of output 4 ends holding what the body left after the last point: that point's block is the
    whole array. -/
theorem final4_of (c : Dev nD) (G : Vec F S1x1 .f32) (h : (outsAt0 m c 15 h15).1 = G) :
    (dats m 0 c).arrAt 4 cfg0.N = G :=
  (dats m 0 c).arrAt_eq_of_cover 4 G (flushed4_eq m c G h) fun i =>
    ⟨t0_15, (flush0_4 t0_15).mpr rfl, by
      show i ∈ ((View.whole main_v13_0).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 1 from by decide +kernel]; omega⟩

/-- Output 5's one write-back, at the last point, writes what the body left there: block (0, 0) of the [1,1] array read
    through zero offsets is the array. -/
theorem flushed5_eq (c : Dev nD) (G : Vec F S1x1 .f32) (h : (outsAt0 m c 15 h15).2 = G) (t : Fin cfg0.N)
    (hf : (cfg0.win 5).flush t = true) :
    (dats m 0 c).flushed 5 t = ((cfg0.win 5).blk t).view.read (Elt F) G := by
  have hN : cfg0.N = 16 := N_0
  have ht : t.val = 15 := by have := (flush0_5 t).mp hf; have := t.isLt; omega
  obtain rfl : t = t0_15 := Fin.ext ht
  show (cfg0.win 5).cut (grid0.coords t0_15) ((dats m 0 c).after 5 t0_15) = _
  rw [after0_5, show (outsAt0 m c t0_15.val t0_15.isLt).2 = G from h]
  have hz' : (fun a => win0_5.index t0_15 a * main_v13_1.ty.shape.size a) = fun _ => 0 := funext fun a => by fin_cases a <;> decide
  exact (Memref.read_access_unit_zero (Elt F) main_v13_1 hz' (fun a => by rw [congrFun hz' a]; simp) G).symm

/-- So the result array of output 5 ends holding what the body left after the last point: that point's block is the
    whole array. -/
theorem final5_of (c : Dev nD) (G : Vec F S1x1 .f32) (h : (outsAt0 m c 15 h15).2 = G) :
    (dats m 0 c).arrAt 5 cfg0.N = G :=
  (dats m 0 c).arrAt_eq_of_cover 5 G (flushed5_eq m c G h) fun i =>
    ⟨t0_15, (flush0_5 t0_15).mpr rfl, by
      show i ∈ ((View.whole main_v13_1).slice (win0_5.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 1 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 1 from by decide +kernel]; omega⟩

/-- What @main's three operations after the region compute from the two result arrays: each [1,1] array reshaped to a
    scalar, the first divided by the second. -/
def quotient (G4 G5 : Vec F S1x1 .f32) : FVec F S_ .f32 :=
  Host.divf (shapeCast S_ G4 shapeCasts_S1x1_S_) (shapeCast S_ G5 shapeCasts_S1x1_S_)

/-- The lines after the region, read at @main's result: the quotient of the two result arrays' contents. -/
theorem tail_of (c : Dev nD) (G4 G5 : Vec F S1x1 .f32) (h4 : (dats m 0 c).arrAt 4 cfg0.N = G4) (h5 : (dats m 0 c).arrAt 5 cfg0.N = G5) :
    Pipeline.afterTail₀ cfgs (dats m) 0 (V0 m) [hostOps1] c main_v16 = quotient G4 G5 := by
  unfold Pipeline.afterTail₀
  show StableHlo.after hostOps1 _ (Proc.devRef .tc main_v16) = _
  after_results
  have e4 : Pipeline.withArrays (cfgs 0).spec c (V0 m c) (fun w => (dats m 0 c).arrAt w (cfgs 0).N) (Proc.devRef .tc main_v13_0) = G4 :=
    (Pipeline.withArrays_arr spec0 launch0.win.arr_inj c _ _ (4 : Fin 6)).trans h4
  have e5 : Pipeline.withArrays (cfgs 0).spec c (V0 m c) (fun w => (dats m 0 c).arrAt w (cfgs 0).N) (Proc.devRef .tc main_v13_1) = G5 :=
    (Pipeline.withArrays_arr spec0 launch0.win.arr_inj c _ _ (5 : Fin 6)).trans h5
  rw [e4, e5]
  rfl

/-- On every device, for any float values, from any memory with zero counters: every weakly fair execution of @main
    terminates with its result at the quotient of what the two accumulators hold after the last point, and the
    arguments unchanged. -/
theorem run_of (G4 G5 : Dev nD → Vec F S1x1 .f32) (h4 : ∀ c, (outsAt0 m c 15 h15).1 = G4 c) (h5 : ∀ c, (outsAt0 m c 15 h15).2 = G5 c) :
    θ_run defs (onTc (τ := τ) (main (F := F))) ⟨m, fun _ => 0, ρ⟩ fun r => ∀ c : Dev nD,
      r.2.mem ((c.tc : Thread nD τ).loc main_v16) = quotient (G4 c) (G5 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans
        (tail_of m c (G4 c) (G5 c) (final4_of m c (G4 c) (h4 c)) (final5_of m c (G5 c) (h5 c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Tail

end
-- ==== Proof.Bridge.lean ====
/-
  The kernel's program computes the specification's loss.

  After the last of the 16 grid steps the numerator's accumulator holds the sum of the 16 block sums of the terms
  `-(L i) · (R i - V i) · M i`, which is the sum over the whole array; the denominator's accumulator the sum of the mask
  `M` likewise. Both are written back once, @main reads each `[1, 1]` result as a scalar and divides: the quotient of
  the two total sums. The mask the region found is the specification's mask of the token ids, and the three float
  arrays are found as launched, so this quotient is the loss of the four arguments.
-/
import proofs.«148462_j57990648430743_1_alg».proof.Proof.Accum
import proofs.«148462_j57990648430743_1_alg».proof.Proof.Tail

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ) (ρ : Dev nD → PrngReg)

/-- The numerator's total: every entry's term, summed. -/
def numV (c : Dev nD) : Vec Ideal S1x1 .f32 := fun _ => ∑ i, Accum.T m c i

/-- The denominator's total: the mask, summed. -/
def denV (c : Dev nD) : Vec Ideal S1x1 .f32 := fun _ => ∑ i, Accum.Mk m c i

/-- After the last step the numerator's accumulator holds the total. -/
theorem last4 (c : Dev nD) : (outsAt0 m c 15 Tail.h15).1 = numV m c := funext fun j => by
  obtain ⟨i, u, rfl⟩ : ∃ (i u : Fin 1), j = ix2 i u := ⟨j 0, j 1, eq_ix2 j⟩
  exact ((Accum.outsAt_eq m c 15 Tail.h15 i u).1).trans (Cert.MaskedLoss.sum_range_blockAt _)

/-- And the denominator's accumulator the mask's total. -/
theorem last5 (c : Dev nD) : (outsAt0 m c 15 Tail.h15).2 = denV m c := funext fun j => by
  obtain ⟨i, u, rfl⟩ : ∃ (i u : Fin 1), j = ix2 i u := ⟨j 0, j 1, eq_ix2 j⟩
  exact ((Accum.outsAt_eq m c 15 Tail.h15 i u).2).trans (Cert.MaskedLoss.sum_range_blockAt _)

/-- The quotient of the two totals is the loss of the launch's arguments. -/
theorem quotient_eq_loss (c : Dev nD) :
    Tail.quotient (numV m c) (denV m c)
      = Cert.MaskedLoss.loss (m ((c.tc : Thread nD τ).loc main_arg0)) (m ((c.tc : Thread nD τ).loc main_arg1))
          (m ((c.tc : Thread nD τ).loc main_arg2)) (m ((c.tc : Thread nD τ).loc main_arg3)) := by
  unfold Tail.quotient Cert.MaskedLoss.loss
  refine congrArg₂ (Host.divf (F := Ideal)) (funext fun j => ?_) (funext fun j => ?_)
  · show ∑ i, Accum.T m c i = _
    unfold Accum.T
    rw [Blocks.V_mask, V_main_arg1, V_main_arg2, V_main_arg3]
  · show ∑ i, Accum.Mk m c i = _
    unfold Accum.Mk
    rw [Blocks.V_mask]

/-- The kernel's program, run: the result is the loss of the arguments, which end unchanged. -/
theorem run : θ_run defs (onTc (τ := τ) (main (F := Ideal))) ⟨m, fun _ => 0, ρ⟩ fun r => ∀ c : Dev nD,
      r.2.mem ((c.tc : Thread nD τ).loc main_v16)
        = Cert.MaskedLoss.loss (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (quotient_eq_loss m c), (h c).2⟩)
    (Tail.run_of m ρ (numV m) (denV m) (last4 m) (last5 m))

end Cert.KernelIdeal.Bridge

end
-- ==== Proof.lean ====
/-
  The kernel and its reference compute the same masked policy-gradient loss.

  Both programs build the same 0/1 token mask `M` from the token ids by the same chain of host operations (a token is
  kept when it is nonzero and no zero stands at or before it in its row; the flags are shifted right by one behind a
  leading 1). The reference then forms `(-L) · (R - V) · M` elementwise and divides its sum over all 8192 × 1024 entries
  by the sum of `M`. The kernel walks the rows in 16 blocks of 512: per block it forms `(0 - L) · (R - V) · M`, sums
  each row, sums the row sums, and adds the block's total to a one-entry accumulator that starts at zero (the mask's
  block total likewise); after the last block the two totals are written back and divided.

  Over the extended reals `0 - x = -x` for every `x`, and addition is commutative and associative, so the 16 block
  totals, each a sum of row sums, add up to the one sum over the whole array (the pair (block, row in block) ↔ row is a
  bijection): numerator and denominator agree, hence the quotient. No finiteness of the inputs is needed for this.
  No operation of the kernel is rewritten for the reading over the extended reals, so the idealization claim is trivial.
-/
import proofs.«148462_j57990648430743_1_alg».proof.Defs
import proofs.«148462_j57990648430743_1_alg».proof.Proof.Gen.Kernel
import proofs.«148462_j57990648430743_1_alg».proof.Proof.Gen.Kernel.Frame
import proofs.«148462_j57990648430743_1_alg».proof.Proof.Gen.KernelIdeal
import proofs.«148462_j57990648430743_1_alg».proof.Proof.Gen.KernelIdeal.Frame
import proofs.«148462_j57990648430743_1_alg».proof.Proof.Gen.ReferenceIdeal
import proofs.«148462_j57990648430743_1_alg».proof.Proof.Gen.Pre_finite_inputs
import proofs.«148462_j57990648430743_1_alg».proof.Proof.RefRun
import proofs.«148462_j57990648430743_1_alg».proof.Proof.Bridge
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and no operation writes an argument. -/
theorem frame_ri : Cert.frame_ReferenceIdeal := fun m ρ _ =>
  (θ_run Cert.ReferenceIdeal.defs _ _).mono (fun _ h c => (h c).2) (Cert.ReferenceIdeal.RefRun.run (F := Ideal) m ρ)

/-- No operation of the kernel was rewritten for the ideal reading. -/
theorem preserves : Cert.preserves_Kernel_KernelIdeal := trivial

/-- From memories that agree on the four arguments both programs end with the loss of those arguments. -/
theorem algebraic : Cert.algebraic_KernelIdeal_ReferenceIdeal := by
  intro m ρ m' ρ' _ hagree
  refine ⟨fun c => Cert.MaskedLoss.loss (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3)), Cert.KernelIdeal.Bridge.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRun.out_eq_loss, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
